-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2x128 : Shape := ⟨3, ![512, 2, 128]⟩
abbrev S512x1 : Shape := ⟨2, ![512, 1]⟩
abbrev S_ : Shape := ⟨0, ![]⟩

class Facts : Prop where
  bcast_S_S512x2x128 : S_.BroadcastsInDim S512x2x128 (![] : Fin 0 → Fin S512x2x128.rank)
  reducesTo_S512x2x128_S_d0_1_2 : S512x2x128.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x2x128 .f32) (main_arg1 : FVec F S512x1 .f32) : IVec S_ 1 :=
  let main_v0 : FVec F S512x2x128 .f32 := Host.absf main_arg0
  let main_cst : FVec F S_ .f32 := constant S_ .f32 0x7F800000#32
  let main_v1 : FVec F S512x2x128 .f32 := broadcastInDim S512x2x128 ![] bcast_S_S512x2x128 main_cst
  let main_v2 : IVec S512x2x128 1 := cmpf .olt main_v0 main_v1
  let main_c : IVec S_ 1 := constantI S_ 1 1#1
  let main_v3 : IVec S_ 1 := (fun x v => Host.reduce IntOp.andi x v reducesTo_S512x2x128_S_d0_1_2 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S512x2x128 : Shape := ⟨3, ![512, 2, 128]⟩
abbrev S512x1 : Shape := ⟨2, ![512, 1]⟩
abbrev S512x1x128 : Shape := ⟨3, ![512, 1, 128]⟩
abbrev S512x128 : Shape := ⟨2, ![512, 128]⟩
abbrev S1024x128 : Shape := ⟨2, ![1024, 128]⟩
abbrev S1x512x1x1 : Shape := ⟨4, ![1, 512, 1, 1]⟩
abbrev S2x512x1x1 : Shape := ⟨4, ![2, 512, 1, 1]⟩
abbrev S1024x1 : Shape := ⟨2, ![1024, 1]⟩
abbrev S_ : Shape := ⟨0, ![]⟩
abbrev S1024 : Shape := ⟨1, ![1024]⟩
abbrev S1x1024 : Shape := ⟨2, ![1, 1024]⟩
abbrev S2x1x1 : Shape := ⟨3, ![2, 1, 1]⟩
abbrev S1x1x1 : Shape := ⟨3, ![1, 1, 1]⟩
abbrev S512x1024 : Shape := ⟨2, ![512, 1024]⟩
abbrev S512 : Shape := ⟨1, ![512]⟩
abbrev S1 : Shape := ⟨1, ![1]⟩
abbrev S1x1 : Shape := ⟨2, ![1, 1]⟩

abbrev nBuf : Space → Nat
  | .hbm => 22
  | .vmem => 9
  | .smem => 0
  | _ => 0

abbrev bufTy : (tb : Table) → Fin (tcTables nBuf tb) → BufTy
  | .hbm, ⟨0, _⟩ => ⟨S512x2x128, .f32⟩
  | .hbm, ⟨1, _⟩ => ⟨S512x1, .f32⟩
  | .hbm, ⟨2, _⟩ => ⟨S512x1x128, .f32⟩
  | .hbm, ⟨3, _⟩ => ⟨S512x128, .f32⟩
  | .hbm, ⟨4, _⟩ => ⟨S512x1x128, .f32⟩
  | .hbm, ⟨5, _⟩ => ⟨S512x128, .f32⟩
  | .hbm, ⟨6, _⟩ => ⟨S1024x128, .f32⟩
  | .hbm, ⟨7, _⟩ => ⟨S1x512x1x1, .f32⟩
  | .hbm, ⟨8, _⟩ => ⟨S2x512x1x1, .f32⟩
  | .hbm, ⟨9, _⟩ => ⟨S1024x1, .f32⟩
  | .hbm, ⟨10, _⟩ => ⟨S1024x128, .bf16⟩
  | .hbm, ⟨11, _⟩ => ⟨S1024x128, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1x1024, .f32⟩
  | .hbm, ⟨16, _⟩ => ⟨S1x1024, .f32⟩
  | .hbm, ⟨17, _⟩ => ⟨S2x1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1, .f32⟩
  | .local _ .vmem, ⟨4, _⟩ => ⟨S512x1, .f32⟩
  | .local _ .vmem, ⟨5, _⟩ => ⟨S1x1024, .f32⟩
  | .local _ .vmem, ⟨6, _⟩ => ⟨S1x1024, .f32⟩
  | .local _ .vmem, ⟨7, _⟩ => ⟨S1x1x1, .f32⟩
  | .local _ .vmem, ⟨8, _⟩ => ⟨S1x1x1, .f32⟩
  | _, _ => ⟨S512x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x2x128_S512x1x128_0_0_0 : S512x2x128.Slices ![0, 0, 0] S512x1x128
  shapeCasts_S512x1x128_S512x128 : S512x1x128.ShapeCasts S512x128
  slices_S512x2x128_S512x1x128_0_1_0 : S512x2x128.Slices ![0, 1, 0] S512x1x128
  concatenates_S512x128_S512x128_S1024x128_d0 : Shape.Concatenates [S512x128, S512x128] S1024x128 0
  shapeCasts_S512x1_S1x512x1x1 : S512x1.ShapeCasts S1x512x1x1
  bcast_S1x512x1x1_S2x512x1x1_0_1_2_3 : S1x512x1x1.BroadcastsInDim S2x512x1x1 (![0, 1, 2, 3] : Fin 4 → Fin S2x512x1x1.rank)
  shapeCasts_S2x512x1x1_S1024x1 : S2x512x1x1.ShapeCasts S1024x1
  bitsLt_bf16_f32 : FTy.bits .bf16 < FTy.bits .f32
  reducesTo_S1024x128_S1024_d1 : S1024x128.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S512x128_S512 : S512x128.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  iota_S512x1_d0_w32 : S512x1.Iotas .tc 32 [0]
  iota_S1x1024_d1_w32 : S1x1024.Iotas .tc 32 [1]
  reduces_S512x1024_S512 : S512x1024.Reduces [1] S512
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .f32 = 32 ∨ (Rect.block (s := S1024x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v4) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x2x128 : Shape := ⟨3, ![512, 2, 128]⟩
abbrev S512x1 : Shape := ⟨2, ![512, 1]⟩
abbrev S512x1x128 : Shape := ⟨3, ![512, 1, 128]⟩
abbrev S512x128 : Shape := ⟨2, ![512, 128]⟩
abbrev S1024x128 : Shape := ⟨2, ![1024, 128]⟩
abbrev S1x512x1x1 : Shape := ⟨4, ![1, 512, 1, 1]⟩
abbrev S2x512x1x1 : Shape := ⟨4, ![2, 512, 1, 1]⟩
abbrev S1024x1 : Shape := ⟨2, ![1024, 1]⟩
abbrev S1024x1x1 : Shape := ⟨3, ![1024, 1, 1]⟩
abbrev S1x1024x1 : Shape := ⟨3, ![1, 1024, 1]⟩
abbrev S1024x1024x1 : Shape := ⟨3, ![1024, 1024, 1]⟩
abbrev S_ : Shape := ⟨0, ![]⟩
abbrev S1024x1024 : Shape := ⟨2, ![1024, 1024]⟩
abbrev S1024x1x128 : Shape := ⟨3, ![1024, 1, 128]⟩
abbrev S1x1024x128 : Shape := ⟨3, ![1, 1024, 128]⟩
abbrev S1024x1024x128 : Shape := ⟨3, ![1024, 1024, 128]⟩

abbrev nBuf : Space → Nat
  | .hbm => 55
  | .vmem => 0
  | .smem => 0
  | _ => 0

abbrev bufTy : (tb : Table) → Fin (tcTables nBuf tb) → BufTy
  | .hbm, ⟨0, _⟩ => ⟨S512x2x128, .f32⟩
  | .hbm, ⟨1, _⟩ => ⟨S512x1, .f32⟩
  | .hbm, ⟨2, _⟩ => ⟨S512x1x128, .f32⟩
  | .hbm, ⟨3, _⟩ => ⟨S512x128, .f32⟩
  | .hbm, ⟨4, _⟩ => ⟨S512x1x128, .f32⟩
  | .hbm, ⟨5, _⟩ => ⟨S512x128, .f32⟩
  | .hbm, ⟨6, _⟩ => ⟨S1024x128, .f32⟩
  | .hbm, ⟨7, _⟩ => ⟨S1x512x1x1, .f32⟩
  | .hbm, ⟨8, _⟩ => ⟨S2x512x1x1, .f32⟩
  | .hbm, ⟨9, _⟩ => ⟨S1024x1, .f32⟩
  | .hbm, ⟨10, _⟩ => ⟨S1024x1x1, .f32⟩
  | .hbm, ⟨11, _⟩ => ⟨S1x1024x1, .f32⟩
  | .hbm, ⟨12, _⟩ => ⟨S1024x1024x1, .f32⟩
  | .hbm, ⟨13, _⟩ => ⟨S1024x1024x1, .f32⟩
  | .hbm, ⟨14, _⟩ => ⟨S1024x1024x1, .f32⟩
  | .hbm, ⟨15, _⟩ => ⟨S1024x1024x1, .f32⟩
  | .hbm, ⟨16, _⟩ => ⟨S_, .f32⟩
  | .hbm, ⟨17, _⟩ => ⟨S1024x1024, .f32⟩
  | .hbm, ⟨18, _⟩ => ⟨S1024x1x128, .f32⟩
  | .hbm, ⟨19, _⟩ => ⟨S1x1024x128, .f32⟩
  | .hbm, ⟨20, _⟩ => ⟨S1024x1024x128, .f32⟩
  | .hbm, ⟨21, _⟩ => ⟨S1024x1024x128, .f32⟩
  | .hbm, ⟨22, _⟩ => ⟨S1024x1024x128, .f32⟩
  | .hbm, ⟨23, _⟩ => ⟨S1024x1024x128, .f32⟩
  | .hbm, ⟨24, _⟩ => ⟨S_, .f32⟩
  | .hbm, ⟨25, _⟩ => ⟨S1024x1024, .f32⟩
  | .hbm, ⟨26, _⟩ => ⟨S_, .i1⟩
  | .hbm, ⟨27, _⟩ => ⟨S1024x1024, .i1⟩
  | .hbm, ⟨28, _⟩ => ⟨S1024x1024, .i32⟩
  | .hbm, ⟨29, _⟩ => ⟨S_, .i32⟩
  | .hbm, ⟨30, _⟩ => ⟨S1024x1024, .i32⟩
  | .hbm, ⟨31, _⟩ => ⟨S1024x1024, .i32⟩
  | .hbm, ⟨32, _⟩ => ⟨S1024x1024, .i32⟩
  | .hbm, ⟨33, _⟩ => ⟨S1024x1024, .i1⟩
  | .hbm, ⟨34, _⟩ => ⟨S_, .i1⟩
  | .hbm, ⟨35, _⟩ => ⟨S1024x1024, .i1⟩
  | .hbm, ⟨36, _⟩ => ⟨S1024x1024, .i1⟩
  | .hbm, ⟨37, _⟩ => ⟨S_, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v23 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  slices_S512x2x128_S512x1x128_0_0_0 : S512x2x128.Slices ![0, 0, 0] S512x1x128
  shapeCasts_S512x1x128_S512x128 : S512x1x128.ShapeCasts S512x128
  slices_S512x2x128_S512x1x128_0_1_0 : S512x2x128.Slices ![0, 1, 0] S512x1x128
  concatenates_S512x128_S512x128_S1024x128_d0 : Shape.Concatenates [S512x128, S512x128] S1024x128 0
  shapeCasts_S512x1_S1x512x1x1 : S512x1.ShapeCasts S1x512x1x1
  bcast_S1x512x1x1_S2x512x1x1_0_1_2_3 : S1x512x1x1.BroadcastsInDim S2x512x1x1 (![0, 1, 2, 3] : Fin 4 → Fin S2x512x1x1.rank)
  shapeCasts_S2x512x1x1_S1024x1 : S2x512x1x1.ShapeCasts S1024x1
  bcast_S1024x1_S1024x1x1_0_2 : S1024x1.BroadcastsInDim S1024x1x1 (![0, 2] : Fin 2 → Fin S1024x1x1.rank)
  bcast_S1024x1_S1x1024x1_1_2 : S1024x1.BroadcastsInDim S1x1024x1 (![1, 2] : Fin 2 → Fin S1x1024x1.rank)
  bcast_S1024x1x1_S1024x1024x1_0_1_2 : S1024x1x1.BroadcastsInDim S1024x1024x1 (![0, 1, 2] : Fin 3 → Fin S1024x1024x1.rank)
  bcast_S1x1024x1_S1024x1024x1_0_1_2 : S1x1024x1.BroadcastsInDim S1024x1024x1 (![0, 1, 2] : Fin 3 → Fin S1024x1024x1.rank)
  reducesTo_S1024x1024x1_S1024x1024_d2 : S1024x1024x1.ReducesTo [2] S1024x1024
  h_S_ : 0 < S_.numel
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  bcast_S_S1024x1024 : S_.BroadcastsInDim S1024x1024 (![] : Fin 0 → Fin S1024x1024.rank)
  reducesTo_S1024x1024_S_d0_1 : S1024x1024.ReducesTo [0, 1] S_

variable [Facts₀]

class Facts : Prop extends Facts₀ where

variable [Facts]
-- ==== Proof.LibMomentsSums.lean ====
/-
  GENERAL lemmas on finite sums over an additive commutative monoid (so they hold on the extended reals with no
  finiteness hypothesis).

  * A sum over K * b indices is the sum over K consecutive blocks of width b (the index b * k + i of block k,
    place i, runs through every index exactly once).
  * The padded blocked sum: 80 rows, of which only the rows 8 t (t = 0 … 9) are nonzero and row 8 t holds the
    sum of block t of a family of 50000 terms cut into 10 blocks of width 5000; the sum of the 80 rows is the
    sum of the 50000 terms.
  * A sum over 384 indices is the sum of three sums over 128 indices (k, 128 + k, 256 + k).
-/
import Mathlib.Algebra.BigOperators.Fin
import Mathlib.Algebra.BigOperators.Group.Finset.Basic
import Mathlib.Logic.Equiv.Fin.Basic
import Mathlib.Tactic.Ring

namespace Cert.LibMoments

open scoped BigOperators

variable {M : Type*} [AddCommMonoid M]

/-! ## Blocks -/

/-- Place i of block k is an index of the whole. -/
theorem idx_lt {K b : ℕ} (k : Fin K) (i : Fin b) : i.val + b * k.val < K * b := by
  have hk : k.val + 1 ≤ K := k.isLt
  calc i.val + b * k.val < b + b * k.val := Nat.add_lt_add_right i.isLt _
    _ = b * (k.val + 1) := by ring
    _ ≤ b * K := Nat.mul_le_mul_left _ hk
    _ = K * b := Nat.mul_comm _ _

/-- A sum over K * b indices, block by block: (k, i) ↦ i + b * k is a bijection of pairs with indices. -/
theorem sum_fin_mul (K b : ℕ) (f : Fin (K * b) → M) :
    ∑ j : Fin (K * b), f j = ∑ k : Fin K, ∑ i : Fin b, f ⟨i.val + b * k.val, idx_lt k i⟩ := by
  rw [← (finProdFinEquiv (m := K) (n := b)).sum_comp f, Fintype.sum_prod_type]
  rfl

/-! ## The padded blocked sum -/

/-- Place q of the block that row r names (block r / 8) is one of the 50000 indices. -/
theorem pad_lt (r : Fin 80) (q : Fin 5000) : 5000 * (r.val / 8) + q.val < 50000 := by
  have := r.isLt; have := q.isLt; omega

/-- The padded blocked sum, with the rows' entries given as a function G r q and the index relation as a
    hypothesis on values (only asked at the rows that count, r % 8 = 0): any spelling of the index applies. -/
theorem padded_sum_of (g : Fin 50000 → M) (G : Fin 80 → Fin 5000 → M)
    (hG : ∀ (r : Fin 80) (q : Fin 5000) (p : Fin 50000), r.val % 8 = 0 → p.val = 5000 * (r.val / 8) + q.val →
      G r q = g p) :
    ∑ r : Fin 80, (if r.val % 8 = 0 then ∑ q : Fin 5000, G r q else 0) = ∑ p : Fin 50000, g p := by
  have e1 := sum_fin_mul (M := M) 10 8 (fun r : Fin 80 => if r.val % 8 = 0 then ∑ q : Fin 5000, G r q else 0)
  have e2 := sum_fin_mul (M := M) 10 5000 g
  refine (e1.trans ?_).trans e2.symm
  refine Fintype.sum_congr _ _ fun t => ?_
  have h0 : ∀ i : Fin 8, i ≠ 0 → ¬ ((i.val + 8 * t.val) % 8 = 0) := by
    intro i hi h
    apply hi
    apply Fin.ext
    have := i.isLt
    show i.val = 0
    omega
  rw [Finset.sum_eq_single (0 : Fin 8) (fun i _ hi => if_neg (h0 i hi)) (fun h => absurd (Finset.mem_univ _) h)]
  have hz : ((0 : Fin 8).val + 8 * t.val) % 8 = 0 := by
    show (0 + 8 * t.val) % 8 = 0
    omega
  rw [if_pos hz]
  refine Fintype.sum_congr _ _ fun q => hG _ q _ hz ?_
  show q.val + 5000 * t.val = 5000 * ((0 + 8 * t.val) / 8) + q.val
  omega

/-- The padded blocked sum in its literal form. -/
theorem padded_sum (g : Fin 50000 → M) :
    ∑ r : Fin 80, (if r.val % 8 = 0 then ∑ q : Fin 5000, g ⟨5000 * (r.val / 8) + q.val, pad_lt r q⟩ else 0)
      = ∑ p : Fin 50000, g p :=
  padded_sum_of g _ fun _ _ _ _ hp => congrArg g (Fin.ext hp.symm)

/-- The same with any family of proofs of the bound. -/
theorem padded_sum' (g : Fin 50000 → M) (h : ∀ (r : Fin 80) (q : Fin 5000), 5000 * (r.val / 8) + q.val < 50000) :
    ∑ r : Fin 80, (if r.val % 8 = 0 then ∑ q : Fin 5000, g ⟨5000 * (r.val / 8) + q.val, h r q⟩ else 0)
      = ∑ p : Fin 50000, g p :=
  padded_sum g

/-! ## Three blocks of width 128 -/

/-- A sum over 384 indices as three sums over 128, the three families given as functions and the index relations
    as hypotheses on values. -/
theorem sum_384_of (f : Fin 384 → M) (a b c : Fin 128 → M)
    (ha : ∀ (k : Fin 128) (j : Fin 384), j.val = k.val → a k = f j)
    (hb : ∀ (k : Fin 128) (j : Fin 384), j.val = 128 + k.val → b k = f j)
    (hc : ∀ (k : Fin 128) (j : Fin 384), j.val = 256 + k.val → c k = f j) :
    ∑ j : Fin 384, f j = (∑ k : Fin 128, a k) + (∑ k : Fin 128, b k) + ∑ k : Fin 128, c k := by
  have e := sum_fin_mul (M := M) 3 128 f
  refine e.trans ?_
  rw [Fin.sum_univ_three]
  refine congrArg₂ (· + ·) (congrArg₂ (· + ·) ?_ ?_) ?_
  · refine Fintype.sum_congr _ _ fun k => (ha k _ ?_).symm
    show k.val + 128 * 0 = k.val
    omega
  · refine Fintype.sum_congr _ _ fun k => (hb k _ ?_).symm
    show k.val + 128 * 1 = 128 + k.val
    omega
  · refine Fintype.sum_congr _ _ fun k => (hc k _ ?_).symm
    show k.val + 128 * 2 = 256 + k.val
    omega

theorem lt_384_0 (k : Fin 128) : k.val < 384 := by have := k.isLt; omega
theorem lt_384_1 (k : Fin 128) : 128 + k.val < 384 := by have := k.isLt; omega
theorem lt_384_2 (k : Fin 128) : 256 + k.val < 384 := by have := k.isLt; omega

/-- The literal form. -/
theorem sum_384 (f : Fin 384 → M) :
    ∑ j : Fin 384, f j = (∑ k : Fin 128, f ⟨k.val, lt_384_0 k⟩) + (∑ k : Fin 128, f ⟨128 + k.val, lt_384_1 k⟩)
      + ∑ k : Fin 128, f ⟨256 + k.val, lt_384_2 k⟩ :=
  sum_384_of f _ _ _ (fun _ _ h => congrArg f (Fin.ext h.symm)) (fun _ _ h => congrArg f (Fin.ext h.symm))
    (fun _ _ h => congrArg f (Fin.ext h.symm))

end Cert.LibMoments
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.PairLaw.lean ====
/-
  The pairwise loss, as mathematics on the extended reals; no program is mentioned here.

  For rows f(i, ·) of a feature matrix and labels lab(i), the loss adds, over the pairs i < j,
      ( √(d²(i, j)) / 2 − |lab i − lab j| )²
  where d²(i, j) is the squared distance of rows i and j. Two spellings of one entry are compared:

  * the direct one: d²(i, j) = 0 + ∑ₖ (f(i,k) − f(j,k))², and the label difference summed over a label axis of extent one;
  * the expanded one: d²(i, j) = (∑ₖ f(i,k)² + (0 + ∑ₖ f(j,k)²)) − 2 · ∑ₖ f(i,k)·f(j,k), clamped below at 0 before the root.

  On REAL entries the two squared distances are one number (the binomial expansion, summed over k), it is not negative, so
  the clamp does nothing; that is the one place where finite features are used: on the extended reals the expansion
  fails at an infinity (∞ − ∞). The label term is the same expression on both sides. Off the strict upper triangle both
  entries are 0 whatever the squared distance is. The total over all pairs is then regrouped: rows in two blocks of 512.
-/
import Mathlib.Data.EReal.Basic
import Mathlib.Data.EReal.Operations
import Mathlib.Algebra.BigOperators.Fin
import Mathlib.Algebra.Order.BigOperators.Ring.Finset
import Mathlib.Tactic.Ring
import Idealize.ShloMosaic.PureOps.Ideal
import proofs.«137974_j50757923504321_2_alg».proof.Proof.LibMomentsSums
import proofs.«137974_j50757923504321_2_alg».proof.Proof.LibSmallWords

noncomputable section

namespace Cert.PairLoss

open Idealize.ShloMosaic Cert.LibSmallWords
open scoped BigOperators

/-- The binomial expansion of a squared distance, over the reals. -/
theorem sqdist_real {K : ℕ} (x y : Fin K → ℝ) :
    ((∑ k, x k * x k) + (∑ k, y k * y k)) - 2 * (∑ k, x k * y k) = ∑ k, (x k - y k) * (x k - y k) := by
  rw [Finset.mul_sum, ← Finset.sum_add_distrib, ← Finset.sum_sub_distrib]
  exact Finset.sum_congr rfl fun k _ => by ring

/-- The expanded squared distance of two rows of reals, clamped below at zero, is the direct squared distance. -/
theorem clamp_expanded_eq {K : ℕ} (a b : Fin K → EReal) (ha : ∀ k, ∃ r : ℝ, a k = r) (hb : ∀ k, ∃ r : ℝ, b k = r) :
    max (((∑ k, a k * a k) + (0 + ∑ k, b k * b k)) - ((2 : ℝ) : EReal) * (∑ k, a k * b k)) 0
      = 0 + ∑ k, (a k - b k) * (a k - b k) := by
  choose x hx using ha
  choose y hy using hb
  obtain rfl : a = fun k => ((x k : ℝ) : EReal) := funext hx
  obtain rfl : b = fun k => ((y k : ℝ) : EReal) := funext hy
  simp only [zero_add, ← EReal.coe_mul, ← EReal.coe_sub, coe_sum, ← EReal.coe_add]
  rw [sqdist_real]
  exact max_eq_left (EReal.coe_nonneg.2 (Finset.sum_nonneg fun k _ => mul_self_nonneg _))

/-! ## The strict upper triangle as a bit -/

/-- The bit of "i < j". -/
def upperBit {n : ℕ} (i j : Fin n) : BitVec 1 := if i.val < j.val then 1#1 else 0#1

/-- A block's row offset plus the row inside the block, compared with a column: the mask in global coordinates, where row
    r of block t is row 512 t + r. -/
theorem blockMask_eq (t r c i : ℕ) (ht : t < 2) (hr : r < 512) (hc : c < 1024) (hi : i = 512 * t + r) :
    IntOp.cmpi .slt (IntOp.addi (Scalar.muli (BitVec.ofNat 32 t) 512#32) (BitVec.ofNat 32 r)) (BitVec.ofNat 32 c)
      = if i < c then 1#1 else 0#1 := by
  subst hi
  have e : IntOp.addi (Scalar.muli (BitVec.ofNat 32 t) 512#32) (BitVec.ofNat 32 r) = BitVec.ofNat 32 (512 * t + r) := by
    show BitVec.ofNat 32 t * 512#32 + BitVec.ofNat 32 r = _
    rw [Nat.mul_comm, BitVec.ofNat_add, BitVec.ofNat_mul]
  rw [e]
  show BitVec.ofBool ((BitVec.ofNat 32 (512 * t + r)).slt (BitVec.ofNat 32 c)) = _
  rw [slt_ofNat _ _ (by omega) (by omega)]
  by_cases h : 512 * t + r < c
  · rw [if_pos h, decide_eq_true h]; rfl
  · rw [if_neg h, decide_eq_false h]; rfl

/-- The complement of the lower triangle: "not (i + 0 ≥ j)" selects 0 on and below the diagonal, 1 above it. -/
theorem triuMask_eq (i j : ℕ) (hi : i < 1024) (hj : j < 1024) :
    Scalar.select (IntOp.cmpi .sge (IntOp.addi (BitVec.ofNat 32 i) 0#32) (BitVec.ofNat 32 j)) (0#1) (1#1)
      = if i < j then 1#1 else 0#1 := by
  have e : IntOp.addi (BitVec.ofNat 32 i) 0#32 = BitVec.ofNat 32 i := by
    show BitVec.ofNat 32 i + 0#32 = _
    rw [BitVec.add_zero]
  rw [e]
  show Scalar.select (BitVec.ofBool ((BitVec.ofNat 32 j).sle (BitVec.ofNat 32 i))) (0#1) (1#1) = _
  rw [sle_ofNat _ _ (by omega) (by omega)]
  by_cases h : i < j
  · rw [if_pos h, decide_eq_false (by omega)]; rfl
  · rw [if_neg h, decide_eq_true (by omega)]; rfl

/-! ## One entry, in its two spellings -/

/-- The direct entry: the squared distance as a sum of squared differences, the label difference summed over a label
    axis of extent one. `one` is the stand-in under the root off the triangle. -/
def directEntry {K : ℕ} (bit : BitVec 1) (one : EReal) (a b : Fin K → EReal) (p q : EReal) : EReal :=
  Scalar.select bit
    ((Ideal.div (Ideal.sqrt (Scalar.select bit (0 + ∑ k, (a k - b k) * (a k - b k)) one)) ((2 : ℝ) : EReal)
        - (0 + ∑ _u : Fin 1, max (p - q) (-(p - q))))
      * (Ideal.div (Ideal.sqrt (Scalar.select bit (0 + ∑ k, (a k - b k) * (a k - b k)) one)) ((2 : ℝ) : EReal)
        - (0 + ∑ _u : Fin 1, max (p - q) (-(p - q)))))
    0

/-- The expanded entry: row norms and a cross term, clamped at zero before the root. `nb` is the second row's norm as
    it is handed in. -/
def expandedEntry {K : ℕ} (bit : BitVec 1) (one : EReal) (a b : Fin K → EReal) (nb : EReal) (p q : EReal) : EReal :=
  Scalar.select bit
    ((Ideal.div (Ideal.sqrt (max (Scalar.select bit (((∑ k, a k * a k) + nb) - ((2 : ℝ) : EReal) * (∑ k, a k * b k)) one) 0))
          ((2 : ℝ) : EReal)
        - max (p - q) (-(p - q)))
      * (Ideal.div (Ideal.sqrt (max (Scalar.select bit (((∑ k, a k * a k) + nb) - ((2 : ℝ) : EReal) * (∑ k, a k * b k)) one) 0))
          ((2 : ℝ) : EReal)
        - max (p - q) (-(p - q))))
    0

/-- On real features the two spellings are one extended real. -/
theorem expanded_eq_direct {K : ℕ} (bit : BitVec 1) (one : EReal) (a b : Fin K → EReal)
    (ha : ∀ k, ∃ r : ℝ, a k = r) (hb : ∀ k, ∃ r : ℝ, b k = r) (p q : EReal) :
    expandedEntry bit one a b (0 + ∑ k, b k * b k) p q = directEntry bit one a b p q := by
  unfold expandedEntry directEntry
  rcases BitVec.eq_zero_or_eq_one bit with h | h
  · subst h; rfl
  · subst h
    have hs : ∀ (x y : EReal), Scalar.select (1#1) x y = x := fun _ _ => rfl
    rw [hs, hs, hs, hs, clamp_expanded_eq a b ha hb, Fin.sum_univ_one, zero_add (max (p - q) (-(p - q)))]

/-! ## The total over all pairs, rows in two blocks of 512 -/

/-- Row r of block t. -/
def blockRow (t : Fin 2) (r : Fin 512) : Fin 1024 := ⟨512 * t.val + r.val, by have := t.isLt; have := r.isLt; omega⟩

/-- A sum over 1024 rows is the sum over two blocks of 512 rows. -/
theorem sum_rows_blocks {M : Type*} [AddCommMonoid M] (g : Fin 1024 → M) :
    ∑ i : Fin 1024, g i = ∑ t : Fin 2, ∑ r : Fin 512, g (blockRow t r) := by
  refine (Cert.LibMoments.sum_fin_mul 2 512 g).trans ?_
  refine Finset.sum_congr rfl fun t _ => Finset.sum_congr rfl fun r _ => congrArg g (Fin.ext ?_)
  show r.val + 512 * t.val = 512 * t.val + r.val
  omega

/-- One block's share of the loss, entries in the expanded spelling: rows 512 t … 512 t + 511 against all columns; the
    second row's norm is handed in as 0 + ∑ₖ f(c,k)². -/
def tileSum (f : Fin 1024 → Fin 128 → EReal) (lab : Fin 1024 → EReal) (t : Fin 2) : EReal :=
  ∑ r : Fin 512, ∑ c : Fin 1024,
    expandedEntry (upperBit (blockRow t r) c) 1 (f (blockRow t r)) (f c) (0 + ∑ k, f c k * f c k) (lab (blockRow t r)) (lab c)

/-- The loss before the division: all pairs, entries in the direct spelling. -/
def directTotal (f : Fin 1024 → Fin 128 → EReal) (lab : Fin 1024 → EReal) : EReal :=
  ∑ a : Fin 1024, ∑ b : Fin 1024, directEntry (upperBit a b) 1 (f a) (f b) (lab a) (lab b)

/-- On real features the two blocks' shares add up to the loss over all pairs. -/
theorem tiles_total (f : Fin 1024 → Fin 128 → EReal) (lab : Fin 1024 → EReal) (hf : ∀ i k, ∃ x : ℝ, f i k = x) :
    ∑ t : Fin 2, tileSum f lab t = directTotal f lab := by
  unfold tileSum directTotal
  rw [sum_rows_blocks]
  refine Finset.sum_congr rfl fun t _ => Finset.sum_congr rfl fun r _ => Finset.sum_congr rfl fun c _ => ?_
  exact expanded_eq_direct _ 1 _ _ (hf _) (hf _) _ _

end Cert.PairLoss

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibHostSums.lean ====
/-
  GENERAL lemmas: host sums read at an index, on the extended reals, at any extents.

  * a host sum over the lane axis of a matrix, read at row `n`: the initial value plus the sum of the row's entries;
  * a sum over the index set of a column `[n, 1]` is the sum over its rows.
-/
import proofs.«137974_j50757923504321_2_alg».proof.Proof.LibLayout
import Idealize.ShloMosaic.Lib.ValueIdx
import Idealize.ShloMosaic.PureOps.Ideal.Laws

noncomputable section

open scoped BigOperators
open Idealize.ShloMosaic Idealize.ShloMosaic.ValueIdx

namespace Cert.LibHostSums

/-- A host sum over the lane axis, at row `n`. -/
theorem hostLaneSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (n : Fin a) :
    Host.reduceAdd (F := Ideal) y init h' hu (ix1 n) = init (Shape.Idx.first hu) + ∑ k : Fin b, y (ix2 n k) := by
  simp only [Host.reduceAdd, Ideal.hostReduceAdd_def]
  rw [Ideal.hostReduceAdd_single h' h]
  exact congrArg (_ + ·) (Finset.sum_congr rfl fun k _ => congrArg y (Cert.LibLayout.lift_row h n k))

/-- A sum over the index set of a column is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibHostSums

end
-- ==== Proof.LibFloatWords.lean ====
/-
  The extended reals a few f32 words denote: +∞, 2 and -2.
-/
import Idealize.ShloMosaic.PureOps.Ideal

noncomputable section

namespace Cert.FloatWords

open Idealize.ShloMosaic

/-- The word of f32's `+inf` denotes `⊤`. -/
theorem ofBits_inf : Ideal.ofBits .f32 0x7F800000#32 = ⊤ := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_neg_two : Ideal.ofBits .f32 0xC0000000#32 = ((-2 : ℝ) : EReal) := by
  simp [Ideal.ofBits, Ideal.ieee, -EReal.coe_mul]; norm_num

end Cert.FloatWords

end
-- ==== Proof.TileValue.lean ====
/-
  What one grid point of the kernel computes, as a function of the blocks it loads, at the exact instance.

  At grid point t the body holds a [512, 128] block x0 of feature rows, the whole [1024, 128] feature matrix x1, a [512, 1]
  block x2 of labels, the [1, 1024] row x3 of row norms and the [1, 1024] row x4 of labels. Its one stored value — a
  [1, 1, 1] block — is the sum over the rows r of the block and over all columns c of the masked squared error at (r, c):

      mask(r, c) = (512·t + r < c)                                     (rows counted in the whole matrix)
      d²(r, c)   = (∑ₖ x0(r,k)² + x3(0,c)) − 2 · ∑ₖ x0(r,k) · x1(c,k)   (norms and one matrix product, lanes contracted)
      err(r, c)  = ( √(max (mask ? d² : 1) 0) / 2 − |x2(r,0) − x4(0,c)| )²
      stored     = ∑ᵣ ∑_c (mask ? err : 0).

  The lane sums have no initial value here (the accumulator of a vector reduction is the neutral element).
-/
import proofs.«137974_j50757923504321_2_alg».proof.Proof.Gen.KernelIdeal.Skeleton
import proofs.«137974_j50757923504321_2_alg».proof.Proof.PairLaw
import proofs.«137974_j50757923504321_2_alg».proof.Proof.LibLanes
import proofs.«137974_j50757923504321_2_alg».proof.Proof.LibLayout
import proofs.«137974_j50757923504321_2_alg».proof.Proof.LibHostSums
import proofs.«137974_j50757923504321_2_alg».proof.Proof.LibFloatWords
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

namespace Cert.TileSide

open Cert.KernelIdeal Cert.KernelIdeal.Gen
open Idealize.ShloMosaic Idealize.ShloMosaic.ValueIdx Cert.PairLoss
open scoped BigOperators

/-! ## Small readings at an index -/

theorem sqrt_at {s : Shape} {φ : FTy} (a : FVec Ideal s φ) (i : s.Idx) : sqrt a i = Ideal.sqrt (a i) := rfl
theorem absf_at {s : Shape} {φ : FTy} (a : FVec Ideal s φ) (i : s.Idx) : absf a i = max (a i) (-(a i)) := rfl
theorem word_at (w : BitVec 32) : (Scalar.ofBits .f32 w : Ideal .f32) = Ideal.ofBits .f32 w := rfl

/-- The mask at (r, c) of the block at grid coordinate i: row 512·i + r against column c, as signed 32-bit words. -/
theorem mask_apply (i : grid0.Coords) (r : Fin 512) (c : Fin 1024) :
    k0_pay2 i (ix2 r c)
      = IntOp.cmpi .slt (IntOp.addi (Scalar.muli (BitVec.ofNat 32 (i 0).val) 512#32) (BitVec.ofNat 32 r.val))
          (BitVec.ofNat 32 c.val) := by
  unfold k0_pay2
  dsimp only
  show IntOp.cmpi .slt (broadcastTo S512x1024 _ broadcasts_S512x1_S512x1024 (ix2 r c))
      (broadcastTo S512x1024 _ broadcasts_S1x1024_S512x1024 (ix2 r c)) = _
  rw [Cert.LibLayout.broadcastTo_a1_ab_apply, broadcastTo_1b_ab_apply]
  show IntOp.cmpi .slt (IntOp.addi _ (iota .tc S512x1 32 [0] iota_S512x1_d0_w32 (ix2 r (0 : Fin 1))))
      (iota .tc S1x1024 32 [1] iota_S1x1024_d1_w32 (ix2 (0 : Fin 1) c)) = _
  rw [iota_single_apply, iota_single_apply]
  rfl

/-- A block row's norm, kept as a column, at row r: the sum of the row's squares. -/
theorem rowNorm_apply (v0 : FVec Ideal S512x128 .f32) (hφ : FKind.Formats .f32)
    (hacc : (0x00000000#32 : BitVec 32) = FKind.add.neutral .f32 hφ) (r : Fin 512) :
    shapeCast S512x1 (multiReduction .add [1] S512
        (mulf (shapeCast S512x128 v0 shapeCasts_S512x128_S512x128) (shapeCast S512x128 v0 shapeCasts_S512x128_S512x128))
        0x00000000#32 reduces_S512x128_S512 hφ hacc) shapeCasts_S512_S512x1 (ix2 r (0 : Fin 1))
      = ∑ k : Fin 128, v0 (ix2 r k) * v0 (ix2 r k) := by
  refine (Cert.LibLayout.shapeCast_a_a1_apply _ shapeCasts_S512_S512x1 r 0).trans ?_
  refine (Cert.LibLayout.laneSum_apply _ reduces_S512x128_S512 hφ hacc r).trans ?_
  rw [shapeCast_self]
  rfl

/-- A [1, 1024] row broadcast along the rows reads its entry of column c. -/
theorem rowBcast_apply (v9 : FVec Ideal S1x1024 .f32) (r : Fin 512) (c : Fin 1024) :
    broadcastTo S512x1024 (shapeCast S1x1024 v9 shapeCasts_S1x1024_S1x1024) broadcasts_S1x1024_S512x1024 (ix2 r c)
      = v9 (ix2 (0 : Fin 1) c) := by
  rw [broadcastTo_1b_ab_apply, shapeCast_self]

/-- A [512, 1] column broadcast along the columns reads its entry of row r. -/
theorem colBcast_apply (v17 : FVec Ideal S512x1 .f32) (r : Fin 512) (c : Fin 1024) :
    broadcastTo S512x1024 v17 broadcasts_S512x1_S512x1024 (ix2 r c) = v17 (ix2 r (0 : Fin 1)) :=
  Cert.LibLayout.broadcastTo_a1_ab_apply v17 broadcasts_S512x1_S512x1024 r c

/-- The matrix product of the block with the whole matrix, lanes contracted, at (r, c). -/
theorem cross_apply (v0 : FVec Ideal S512x128 .f32) (v3 : FVec Ideal S1024x128 .bf16) (r : Fin 512) (c : Fin 1024) :
    matmul dot_S512x128_S1024x128_S512x1024_1_1_0_0_n_n none
        (truncf .bf16 (shapeCast S512x128 v0 shapeCasts_S512x128_S512x128) bitsLt_bf16_f32)
        (shapeCast S1024x128 v3 shapeCasts_S1024x128_S1024x128) (constant S512x1024 .f32 0x00000000#32) (ix2 r c)
      = ∑ k : Fin 128, v0 (ix2 r k) * v3 (ix2 c k) := by
  refine (Cert.LibLanes.matmul_lanes dot_S512x128_S1024x128_S512x1024_1_1_0_0_n_n rfl rfl
    (fun _ _ => rfl) (fun j s => DotDims.lhsIdx_val_of_single (d := dot_S512x128_S1024x128_S512x1024_1_1_0_0_n_n) (cl := 1) rfl j s)
    (fun _ _ => rfl) (fun j s => DotDims.rhsIdx_val_of_single (d := dot_S512x128_S1024x128_S512x1024_1_1_0_0_n_n) (cr := 1) rfl j s) _ _ r c).trans ?_
  rw [shapeCast_self, shapeCast_self]
  rfl

/-! ## The squared error at (r, c) -/

set_option backward.isDefEq.respectTransparency.types false in
/-- The squared error at (r, c), in the expanded spelling of the loss entry. -/
theorem sqerr_apply (i : grid0.Coords) (x0 : FVec Ideal S512x128 .f32) (x1 : FVec Ideal S1024x128 .bf16)
    (x3 : FVec Ideal S1x1024 .f32) (x2 : FVec Ideal S512x1 .f32) (x4 : FVec Ideal S1x1024 .f32) (r : Fin 512) (c : Fin 1024) :
    Scalar.select (k0_pay2 i (ix2 r c)) (k0_pay3 (F := Ideal) i x0 x1 x3 x2 x4 (ix2 r c)) (0 : EReal)
      = expandedEntry (k0_pay2 i (ix2 r c)) 1 (fun k : Fin 128 => x0 (ix2 r k)) (fun k : Fin 128 => x1 (ix2 c k))
          (x3 (ix2 (0 : Fin 1) c)) (x2 (ix2 r (0 : Fin 1))) (x4 (ix2 (0 : Fin 1) c)) := by
  unfold k0_pay3 expandedEntry
  dsimp only
  simp only [mulf_apply, subf_apply, divf_apply, addf_apply, maximumf_apply, select_apply, broadcast_apply, sqrt_at,
    absf_at, word_at, rowBcast_apply, colBcast_apply, cross_apply, Ideal.ofBits_zero_f32,
    Ideal.ofBits_one_f32, Cert.FloatWords.ofBits_two]
  rw [rowNorm_apply x0 _ _ r]

/-! ## The stored value -/

set_option backward.isDefEq.respectTransparency.types false in
/-- The one stored value: the masked squared errors summed over the block's rows and all columns. -/
theorem stored_apply (msk : IVec S512x1024 1) (v40 : FVec Ideal S512x1024 .f32) (y : S1x1x1.Idx) :
    k0_pay1 (F := Ideal) msk v40 (Scalar.ofBits .f32 0x00000000#32) y
      = ∑ r : Fin 512, ∑ c : Fin 1024, Scalar.select (msk (ix2 r c)) (v40 (ix2 r c)) (0 : EReal) := by
  have h0 : (y 0).val < 1 := (y 0).isLt
  have h1 : (y 1).val < 1 := (y 1).isLt
  have h2 : (y 2).val < 1 := (y 2).isLt
  obtain rfl : y = ix3 (0 : Fin 1) (0 : Fin 1) (0 : Fin 1) :=
    funext fun d => Fin.ext (by
      match d with
      | ⟨0, _⟩ => show (y 0).val = 0; omega
      | ⟨1, _⟩ => show (y 1).val = 0; omega
      | ⟨2, _⟩ => show (y 2).val = 0; omega)
  unfold k0_pay1
  dsimp only
  rw [shapeCast_ab_1ab_apply, shapeCast_a_1a_apply]
  refine (Ideal.multiReduction_add_total _ _ reduces_S512x1_S1 (fun b => by match b with | ⟨0, _⟩ => rfl) _ _ _).trans ?_
  rw [Cert.LibHostSums.sum_column]
  refine Finset.sum_congr rfl fun r _ => ?_
  refine (Cert.LibLayout.shapeCast_a_a1_apply _ shapeCasts_S512_S512x1 r 0).trans ?_
  refine (Cert.LibLayout.laneSum_apply _ reduces_S512x1024_S512 _ _ r).trans ?_
  refine Finset.sum_congr rfl fun c _ => ?_
  rw [select_apply, broadcast_apply, word_at, Ideal.ofBits_zero_f32]

/-- The stored value of the point at grid coordinate t, from blocks that hold rows 512 t … of a feature matrix f, the whole
    f, the matching labels, the row norms 0 + ∑ₖ f(c,k)² and the labels as a row: block t's share of the loss. -/
theorem point_value (i : grid0.Coords) (t : Fin 2) (hi : (i 0).val = t.val)
    (x0 : FVec Ideal S512x128 .f32) (x1 : FVec Ideal S1024x128 .bf16) (x3 : FVec Ideal S1x1024 .f32)
    (x2 : FVec Ideal S512x1 .f32) (x4 : FVec Ideal S1x1024 .f32)
    (f : Fin 1024 → Fin 128 → EReal) (lab : Fin 1024 → EReal)
    (h0 : ∀ (r : Fin 512) (k : Fin 128), x0 (ix2 r k) = f (blockRow t r) k)
    (h1 : ∀ (c : Fin 1024) (k : Fin 128), x1 (ix2 c k) = f c k)
    (h2 : ∀ r : Fin 512, x2 (ix2 r (0 : Fin 1)) = lab (blockRow t r))
    (h3 : ∀ c : Fin 1024, x3 (ix2 (0 : Fin 1) c) = 0 + ∑ k : Fin 128, f c k * f c k)
    (h4 : ∀ c : Fin 1024, x4 (ix2 (0 : Fin 1) c) = lab c) (y : S1x1x1.Idx) :
    k0_pay1 (F := Ideal) (k0_pay2 i) (k0_pay3 i x0 x1 x3 x2 x4) (Scalar.ofBits .f32 0x00000000#32) y = tileSum f lab t := by
  rw [stored_apply]
  unfold tileSum
  refine Finset.sum_congr rfl fun r _ => Finset.sum_congr rfl fun c _ => ?_
  rw [sqerr_apply, mask_apply, blockMask_eq (i 0).val r.val c.val (blockRow t r).val (by rw [hi]; exact t.isLt) r.isLt c.isLt
    (by rw [hi]; rfl)]
  simp only [h0, h1, h2, h3, h4]
  rfl

end Cert.TileSide

end
-- ==== Proof.LibIdxSums.lean ====
/-
  GENERAL lemmas: a sum over the index set of a rank-1 array is the sum over its one coordinate, and a sum over
  the index set of a rank-3 array is the triple sum over its coordinates (any additive commutative monoid).
-/
import Idealize.ShloMosaic.Lib.ValueIdx

noncomputable section

open scoped BigOperators

namespace Cert.LibIdxSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums

end
-- ==== Proof.KernelRun.lean ====
/-
  The kernel's program, read back at the exact instance: what its result holds after the run.

  Before the call the host stacks the two views of the features into one [1024, 128] matrix f and the labels (twice) into a
  [1024, 1] column lab, and prepares the row norms 0 + ∑ₖ f(c,k)² and the labels as [1, 1024] rows. Grid point t loads rows
  512 t … 512 t + 511 of f and of lab and the three whole arrays, and writes entry t of a [2, 1, 1] array: block t's share of
  the loss. After the call the host adds the two entries from 0 and divides by the number of pairs.
-/
import proofs.«137974_j50757923504321_2_alg».proof.Proof.KernelIdealFrameP
import proofs.«137974_j50757923504321_2_alg».proof.Proof.TileValue
import proofs.«137974_j50757923504321_2_alg».proof.Proof.PairLaw
import proofs.«137974_j50757923504321_2_alg».proof.Proof.LibIdxSums
import proofs.«137974_j50757923504321_2_alg».proof.Proof.LibHostSums
import Idealize.ShloMosaic.Lib.Pipeline.Value
import Idealize.ShloMosaic.Lib.StableHlo.Run
import Idealize.ShloMosaic.Lib.Tactic
import Idealize.ShloMosaic.Lib.ValueLayout

noncomputable section

open Idealize.ShloMosaic Idealize.ShloMosaic.TcCoe Idealize.SL.Sem
open Idealize.ShloMosaic.Pipeline (Dat)

namespace Cert.KernelSide

open Cert.KernelIdeal Cert.KernelIdeal.Gen Cert.KernelIdeal.GenP
open Idealize.ShloMosaic.ValueIdx Cert.PairLoss
open scoped BigOperators

variable (m : (ℓ : Loc nD τ sig) → Buf (Elt Ideal) ℓ) (ρ : Dev nD → PrngReg)

abbrev X0 := (⟨S512x2x128, .f32⟩ : BufTy).Contents (Elt Ideal)
abbrev X1 := (⟨S512x1, .f32⟩ : BufTy).Contents (Elt Ideal)

/-! ## What the host prepares -/

/-- The two views of the features stacked: rows 0 … 511 are view 0, rows 512 … 1023 view 1. -/
def feat (x0 : X0) : FVec Ideal S1024x128 .f32 :=
  concatenate S1024x128 0
    [⟨S512x128, shapeCast _ (extractStridedSlice S512x1x128 ![0, 0, 0] x0 slices_S512x2x128_S512x1x128_0_0_0) shapeCasts_S512x1x128_S512x128⟩,
     ⟨S512x128, shapeCast _ (extractStridedSlice S512x1x128 ![0, 1, 0] x0 slices_S512x2x128_S512x1x128_0_1_0) shapeCasts_S512x1x128_S512x128⟩]
    concatenates_S512x128_S512x128_S1024x128_d0

/-- The labels, twice, as a column. -/
def labs (x1 : X1) : FVec Ideal S1024x1 .f32 :=
  shapeCast _ (broadcastInDim S2x512x1x1 ![0, 1, 2, 3] bcast_S1x512x1x1_S2x512x1x1_0_1_2_3
    (shapeCast _ x1 shapeCasts_S512x1_S1x512x1x1)) shapeCasts_S2x512x1x1_S1024x1

theorem V_feat (c : Dev nD) :
    (V m c main_v4 : S1024x128.Idx → EReal) = feat (m ((c : Thread nD τ).loc main_arg0)) := by
  show StableHlo.after hostOps0 (fun b => m (c, b)) (Proc.devRef .tc main_v4) = _
  after_results
  rfl

theorem V_featB (c : Dev nD) :
    (V m c main_v8 : S1024x128.Idx → EReal) = feat (m ((c : Thread nD τ).loc main_arg0)) := by
  show StableHlo.after hostOps0 (fun b => m (c, b)) (Proc.devRef .tc main_v8) = _
  after_results
  rfl

theorem V_labs (c : Dev nD) :
    (V m c main_v7 : S1024x1.Idx → EReal) = labs (m ((c : Thread nD τ).loc main_arg1)) := by
  show StableHlo.after hostOps0 (fun b => m (c, b)) (Proc.devRef .tc main_v7) = _
  after_results
  rfl

theorem V_norms (c : Dev nD) :
    (V m c main_v12 : S1x1024.Idx → EReal)
      = shapeCast _ (broadcastInDim S1024x1 ![0] bcast_S1024_S1024x1_0
          (Host.reduceAdd (F := Ideal) (mulf (feat (m ((c : Thread nD τ).loc main_arg0))) (feat (m ((c : Thread nD τ).loc main_arg0))))
            (constant (F := Ideal) S_ .f32 0x00000000#32) reducesTo_S1024x128_S1024_d1 h_S_)) shapeCasts_S1024x1_S1x1024 := by
  show StableHlo.after hostOps0 (fun b => m (c, b)) (Proc.devRef .tc main_v12) = _
  after_results
  rfl

theorem V_labsRow (c : Dev nD) :
    (V m c main_v13 : S1x1024.Idx → EReal) = shapeCast _ (labs (m ((c : Thread nD τ).loc main_arg1))) shapeCasts_S1024x1_S1x1024 := by
  show StableHlo.after hostOps0 (fun b => m (c, b)) (Proc.devRef .tc main_v13) = _
  after_results
  rfl

/-- The stacked features by coordinates, and the stacked labels by row. -/
def featAt (x0 : X0) (a : Fin 1024) (k : Fin 128) : EReal := feat x0 (ix2 a k)
def labAt (x1 : X1) (a : Fin 1024) : EReal := labs x1 (ix2 a (0 : Fin 1))

/-- The row of norms at column c: the host's sum, from 0, of the squares of row c. -/
theorem norms_apply (x0 : X0) (c : Fin 1024) :
    (shapeCast S1x1024 (broadcastInDim S1024x1 ![0] bcast_S1024_S1024x1_0
        (Host.reduceAdd (F := Ideal) (mulf (feat x0) (feat x0)) (constant (F := Ideal) S_ .f32 0x00000000#32)
          reducesTo_S1024x128_S1024_d1 h_S_)) shapeCasts_S1024x1_S1x1024 : S1x1024.Idx → EReal) (ix2 (0 : Fin 1) c)
      = 0 + ∑ k : Fin 128, featAt x0 c k * featAt x0 c k := by
  refine (shapeCast_apply _ shapeCasts_S1024x1_S1x1024 _ (ix2 c (0 : Fin 1)) (by
    rw [Shape.rowMajor_val_two, Shape.rowMajor_val_two]
    show c.val * 1 + 0 = 0 * 1024 + c.val
    omega)).trans ?_
  refine (broadcastInDim_apply _ bcast_S1024_S1024x1_0 _ _ (ix1 c) (fun a => by
    match a with
    | ⟨0, _⟩ => show c.val = if (1024 : Nat) = 1 then 0 else c.val; rw [if_neg (by decide)])).trans ?_
  refine (Cert.LibHostSums.hostLaneSum_apply _ _ reducesTo_S1024x128_S1024_d1 (by decide) h_S_ c).trans ?_
  rw [constant_apply, Ideal.ofBits_zero_f32]
  rfl

/-- The row of labels at column c. -/
theorem labsRow_apply (x1 : X1) (c : Fin 1024) :
    (shapeCast S1x1024 (labs x1) shapeCasts_S1024x1_S1x1024 : S1x1024.Idx → EReal) (ix2 (0 : Fin 1) c) = labAt x1 c :=
  shapeCast_apply _ shapeCasts_S1024x1_S1x1024 _ (ix2 c (0 : Fin 1)) (by
    rw [Shape.rowMajor_val_two, Shape.rowMajor_val_two]
    show c.val * 1 + 0 = 0 * 1024 + c.val
    omega)

/-! ## The blocks the grid points load -/

/-- The printed index maps over the two grid points: the row blocks move with the point, the whole arrays do not, the
    output's entry is the point's; and the grid coordinate is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ ((grid0.coords t) 0).val = t.val :=
  (by decide +kernel : ∀ t : Fin grid0.N, _)

/-- A grid point's number as one of the two blocks. -/
def tileOf (t : Fin cfg0.N) : Fin 2 := ⟨t.val, lt_of_lt_of_eq t.isLt N_0⟩

/-- The feature block at point t: rows 512 t … of the stacked features. -/
theorem blk0_apply (c : Dev nD) (t : Fin cfg0.N) (r : Fin 512) (k : Fin 128) :
    (iblk m c 0 t : Vec Ideal S512x128 .f32) (ix2 r k)
      = featAt (m ((c : Thread nD τ).loc main_arg0)) (blockRow (tileOf t) r) k := by
  obtain ⟨e0, e1, -⟩ := idx_facts t
  unfold iblk featAt
  rw [View.read_apply, ← V_feat m c]
  show V m c main_v4 _ = V m c main_v4 _
  congr 1
  funext a
  apply Fin.ext
  match a with
  | ⟨0, _⟩ => show win0_0.index t 0 * 512 + 1 * r.val = 512 * t.val + r.val; rw [e0]; omega
  | ⟨1, _⟩ => show win0_0.index t 1 * 128 + 1 * k.val = k.val; rw [e1]; omega

/-- The whole feature matrix, as the matrix unit's operand. -/
theorem blk1_apply (c : Dev nD) (t : Fin cfg0.N) (a : Fin 1024) (k : Fin 128) :
    (iblk m c 1 t : Vec Ideal S1024x128 .bf16) (ix2 a k) = featAt (m ((c : Thread nD τ).loc main_arg0)) a k := by
  obtain ⟨-, -, e0, e1, -⟩ := idx_facts t
  unfold iblk featAt
  rw [View.read_apply, ← V_featB m c]
  show V m c main_v8 _ = V m c main_v8 _
  congr 1
  funext d
  apply Fin.ext
  match d with
  | ⟨0, _⟩ => show win0_1.index t 0 * 1024 + 1 * a.val = a.val; rw [e0]; omega
  | ⟨1, _⟩ => show win0_1.index t 1 * 128 + 1 * k.val = k.val; rw [e1]; omega

/-- The label block at point t: rows 512 t … of the stacked labels. -/
theorem blk2_apply (c : Dev nD) (t : Fin cfg0.N) (r : Fin 512) :
    (iblk m c 2 t : Vec Ideal S512x1 .f32) (ix2 r (0 : Fin 1))
      = labAt (m ((c : Thread nD τ).loc main_arg1)) (blockRow (tileOf t) r) := by
  obtain ⟨-, -, -, -, e0, e1, -⟩ := idx_facts t
  unfold iblk labAt
  rw [View.read_apply, ← V_labs m c]
  show V m c main_v7 _ = V m c main_v7 _
  congr 1
  funext d
  apply Fin.ext
  match d with
  | ⟨0, _⟩ => show win0_2.index t 0 * 512 + 1 * r.val = 512 * t.val + r.val; rw [e0]; omega
  | ⟨1, _⟩ => show win0_2.index t 1 * 1 + 1 * 0 = 0; rw [e1]

/-- The whole row of norms. -/
theorem blk3_apply (c : Dev nD) (t : Fin cfg0.N) (a : Fin 1024) :
    (iblk m c 3 t : Vec Ideal S1x1024 .f32) (ix2 (0 : Fin 1) a)
      = 0 + ∑ k : Fin 128, featAt (m ((c : Thread nD τ).loc main_arg0)) a k * featAt (m ((c : Thread nD τ).loc main_arg0)) a k := by
  obtain ⟨-, -, -, -, -, -, e0, e1, -⟩ := idx_facts t
  rw [← norms_apply, ← V_norms m c]
  unfold iblk
  rw [View.read_apply]
  show V m c main_v12 _ = V m c main_v12 _
  congr 1
  funext d
  apply Fin.ext
  match d with
  | ⟨0, _⟩ => show win0_3.index t 0 * 1 + 1 * 0 = 0; rw [e0]
  | ⟨1, _⟩ => show win0_3.index t 1 * 1024 + 1 * a.val = a.val; rw [e1]; omega

/-- The whole row of labels. -/
theorem blk4_apply (c : Dev nD) (t : Fin cfg0.N) (a : Fin 1024) :
    (iblk m c 4 t : Vec Ideal S1x1024 .f32) (ix2 (0 : Fin 1) a) = labAt (m ((c : Thread nD τ).loc main_arg1)) a := by
  obtain ⟨-, -, -, -, -, -, -, -, e0, e1, -⟩ := idx_facts t
  rw [← labsRow_apply, ← V_labsRow m c]
  unfold iblk
  rw [View.read_apply]
  show V m c main_v13 _ = V m c main_v13 _
  congr 1
  funext d
  apply Fin.ext
  match d with
  | ⟨0, _⟩ => show win0_4.index t 0 * 1 + 1 * 0 = 0; rw [e0]
  | ⟨1, _⟩ => show win0_4.index t 1 * 1024 + 1 * a.val = a.val; rw [e1]; omega

/-! ## What the grid points write, and the array after the call -/

theorem hz2 : (![0, 0] : Fin 2 → Nat) = fun _ => 0 := funext fun a => by fin_cases a <;> rfl
theorem hz3 : (![0, 0, 0] : Fin 3 → Nat) = fun _ => 0 := funext fun a => by fin_cases a <;> rfl

/-- The [2, 1, 1] array of the two blocks' shares. -/
def tileArr (x0 : X0) (x1 : X1) : S2x1x1.Idx → EReal :=
  fun j => tileSum (featAt x0) (labAt x1) ⟨(j 0).val, (j 0).isLt⟩

/-- What point t writes back is entry t of the array of shares. -/
theorem flushed_eq (c : Dev nD) (t : Fin cfg0.N) :
    (dats m 0 c).flushed 5 t
      = ((cfg0.win 5).blk t).view.read (Elt Ideal)
          (tileArr (m ((c : Thread nD τ).loc main_arg0)) (m ((c : Thread nD τ).loc main_arg1))) := by
  obtain ⟨-, -, -, -, -, -, -, -, -, -, e0, e1, e2, eg⟩ := idx_facts t
  show (cfg0.win 5).cut (grid0.coords t) ((dats m 0 c).after 5 t) = _
  rw [after0_5]
  unfold out0_5
  rw [View.canon_unit_zero hz3]
  simp only [View.ld_unit_zero (S := S512x128) hz2, View.ld_unit_zero (S := S1024x128) hz2,
    View.ld_unit_zero (S := S1x1024) hz2, View.ld_unit_zero (S := S512x1) hz2]
  funext y
  refine (Cert.TileSide.point_value (grid0.coords t) (tileOf t) eg (iblk m c 0 t) (iblk m c 1 t) (iblk m c 3 t)
    (iblk m c 2 t) (iblk m c 4 t) (featAt (m ((c : Thread nD τ).loc main_arg0))) (labAt (m ((c : Thread nD τ).loc main_arg1)))
    (blk0_apply m c t) (blk1_apply m c t) (blk2_apply m c t) (blk3_apply m c t) (blk4_apply m c t) y).trans ?_
  rw [View.read_apply]
  unfold tileArr
  refine congrArg (tileSum _ _) (Fin.ext ?_)
  have hy : (y 0).val < 1 := (y 0).isLt
  show t.val = win0_5.index t 0 * 1 + 1 * (y 0).val
  rw [e0]
  omega

/-- An index of the [2, 1, 1] array is in point t's block iff each coordinate is in the block's range on its axis. -/
theorem mem_blk (t : Fin cfg0.N) (i : S2x1x1.Idx) :
    i ∈ ((cfg0.win 5).blk t).view.set
      ↔ ∀ a : Fin 3, win0_5.index t a * S1x1x1.size a ≤ (i a).val ∧ (i a).val < win0_5.index t a * S1x1x1.size a + S1x1x1.size a := by
  show i ∈ ((View.whole main_v14).slice (win0_5.rect t)).set ↔ _
  rw [View.set_slice_whole, Rect.mem_set_unit]
  exact Iff.rfl

/-- After the call the [2, 1, 1] array holds the two shares: entry t is in point t's block. -/
theorem final (c : Dev nD) :
    (dats m 0 c).arrAt 5 cfg0.N = tileArr (m ((c : Thread nD τ).loc main_arg0)) (m ((c : Thread nD τ).loc main_arg1)) :=
  (dats m 0 c).arrAt_eq_of_cover 5 _ (fun t _ => flushed_eq m c t) fun i => by
    have hi0 : (i 0).val < 2 := (i 0).isLt
    have hi1 : (i 1).val < 1 := (i 1).isLt
    have hi2 : (i 2).val < 1 := (i 2).isLt
    have hN : cfg0.N = 2 := N_0
    refine ⟨⟨(i 0).val, by rw [hN]; exact hi0⟩, flush0_5 _, ?_⟩
    rw [mem_blk]
    obtain ⟨-, -, -, -, -, -, -, -, -, -, e0, e1, e2, -⟩ := idx_facts ⟨(i 0).val, by rw [hN]; exact hi0⟩
    intro a
    match a with
    | ⟨0, _⟩ =>
      show win0_5.index _ 0 * 1 ≤ (i 0).val ∧ (i 0).val < win0_5.index _ 0 * 1 + 1
      rw [e0]
      show (i 0).val * 1 ≤ (i 0).val ∧ (i 0).val < (i 0).val * 1 + 1
      omega
    | ⟨1, _⟩ =>
      show win0_5.index _ 1 * 1 ≤ (i 1).val ∧ (i 1).val < win0_5.index _ 1 * 1 + 1
      rw [e1]
      omega
    | ⟨2, _⟩ =>
      show win0_5.index _ 2 * 1 ≤ (i 2).val ∧ (i 2).val < win0_5.index _ 2 * 1 + 1
      rw [e2]
      omega

/-! ## The host's lines after the call, and the run -/

/-- The kernel program's result: the two shares added from 0, divided by the number of pairs. -/
def result (x0 : X0) (x1 : X1) : S_.Idx → EReal :=
  Host.divf (F := Ideal) (Host.reduceAdd (F := Ideal) (tileArr x0 x1) (constant (F := Ideal) S_ .f32 0x00000000#32)
    reducesTo_S2x1x1_S_d0_1_2 h_S_) (constant (F := Ideal) S_ .f32 0x48FFC000#32)

/-- The result read: 0 plus the two shares, over the number of pairs. -/
theorem result_apply (x0 : X0) (x1 : X1) (i : S_.Idx) :
    result x0 x1 i = Ideal.div (0 + ∑ t : Fin 2, tileSum (featAt x0) (labAt x1) t) (Ideal.ofBits .f32 0x48FFC000#32) := by
  unfold result
  show FloatOps.hostDivf (Host.reduceAdd (F := Ideal) (tileArr x0 x1) (constant (F := Ideal) S_ .f32 0x00000000#32)
    reducesTo_S2x1x1_S_d0_1_2 h_S_ i) (constant (F := Ideal) S_ .f32 0x48FFC000#32 i) = _
  rw [Ideal.hostDivf_def, constant_apply]
  refine congrArg (Ideal.div · _) ?_
  simp only [Host.reduceAdd, Ideal.hostReduceAdd_def]
  rw [Ideal.hostReduceAdd_total reducesTo_S2x1x1_S_d0_1_2 (fun b => b.elim0), constant_apply, Ideal.ofBits_zero_f32,
    Cert.LibIdxSums.sum_idx3]
  refine congrArg (0 + ·) (Finset.sum_congr rfl fun t _ => ?_)
  rw [Fin.sum_univ_one, Fin.sum_univ_one]
  rfl

/-- What the lines after the call leave in the result buffer. -/
theorem tail_eq (c : Dev nD) :
    Pipeline.afterTail₀ cfgs (dats m) 0 (V0 m) [hostOps1] c main_v16
      = result (m ((c : Thread nD τ).loc main_arg0)) (m ((c : Thread nD τ).loc main_arg1)) := by
  unfold Pipeline.afterTail₀
  show StableHlo.after hostOps1 _ (Proc.devRef .tc main_v16) = _
  after_results
  unfold result
  rw [(Pipeline.withArrays_arr spec0 launch0.win.arr_inj c _ _ 5).trans (final m c)]

/-- The run of the kernel's program: the result buffer ends at `result` of the arguments, the arguments unchanged. -/
theorem run : θ_run defs (onTc (τ := τ) (main (F := Ideal))) ⟨m, fun _ => 0, ρ⟩ fun r => ∀ c : Dev nD,
      r.2.mem ((c : Thread nD τ).loc main_v16)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v16 (Pipeline.mem_restRefs_of main_v16 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelSide

end
-- ==== Proof.RefTotal.lean ====
/-
  The reference's result, read back: the 1024 × 1024 matrix of entries, each the direct spelling of the pairwise loss entry
  of rows a and b of the stacked feature matrix and of the stacked labels, summed over all pairs from 0 and divided by
  the number of pairs. The stacked features and labels stay unopened: they are the same terms on the kernel's side.

  Entry (a, b): the mask is "a < b" (the complement of the lower triangle a + 0 ≥ b); under it, the root of
  0 + ∑ₖ (f(a,k) − f(b,k))², halved, less the label difference summed over the label axis of extent one, squared; off it 0.
-/
import proofs.«137974_j50757923504321_2_alg».proof.Proof.Gen.ReferenceIdeal.Read
import proofs.«137974_j50757923504321_2_alg».proof.Proof.PairLaw
import proofs.«137974_j50757923504321_2_alg».proof.Proof.LibFloatWords
import Idealize.ShloMosaic.Lib.ValueIdx
import Idealize.ShloMosaic.Lib.IdealHost

noncomputable section

namespace Cert.RefSide

open Cert.ReferenceIdeal Cert.ReferenceIdeal.Gen Cert.ReferenceIdeal.Read
open Idealize.ShloMosaic Idealize.ShloMosaic.ValueIdx Cert.PairLoss
open scoped BigOperators

abbrev X0 := (⟨S512x2x128, .f32⟩ : BufTy).Contents (Elt Ideal)
abbrev X1 := (⟨S512x1, .f32⟩ : BufTy).Contents (Elt Ideal)

/-- The mask at (a, b) is the bit of a < b. -/
theorem mask_apply (a b : Fin 1024) : val_main_v23 (F := Ideal) (ix2 a b) = upperBit a b := by
  rw [val_main_v23_apply, val_main_call0_v4_apply, val_main_call0_v2_apply, val_main_call0_v0_apply, val_main_call0_v1_apply,
    val_main_call0_c_apply, val_main_call0_v3_apply, val_main_call0_v5_apply, val_main_call0_c_0_apply, val_main_v22_apply,
    val_main_c_apply]
  exact triuMask_eq a.val b.val a.isLt b.isLt

/-- Where the squared difference at (a, b, k) reads the stacked features: rows a and b at lane k. -/
theorem idx_left (a b : Fin 1024) (k : Fin 128) :
    idx_main_v15 (idx_main_v17 (idx_main_v21 (ix2 a b) k)) = ix2 a k :=
  funext fun d => Fin.ext (by match d with | ⟨0, _⟩ => rfl | ⟨1, _⟩ => rfl)
theorem idx_right (a b : Fin 1024) (k : Fin 128) :
    idx_main_v16 (idx_main_v18 (idx_main_v21 (ix2 a b) k)) = ix2 b k :=
  funext fun d => Fin.ext (by match d with | ⟨0, _⟩ => rfl | ⟨1, _⟩ => rfl)
/-- Where the label difference at (a, b, u) reads the stacked labels: rows a and b. -/
theorem idx_lab_left (a b : Fin 1024) (u : Fin 1) :
    idx_main_v8 (idx_main_v10 (idx_main_v14 (ix2 a b) u)) = ix2 a (0 : Fin 1) :=
  funext fun d => Fin.ext (by match d with | ⟨0, _⟩ => rfl | ⟨1, _⟩ => rfl)
theorem idx_lab_right (a b : Fin 1024) (u : Fin 1) :
    idx_main_v9 (idx_main_v11 (idx_main_v14 (ix2 a b) u)) = ix2 b (0 : Fin 1) :=
  funext fun d => Fin.ext (by match d with | ⟨0, _⟩ => rfl | ⟨1, _⟩ => rfl)

/-- The squared distance of rows a and b as the reference sums it. -/
theorem sqdist_apply (x0 : X0) (a b : Fin 1024) :
    val_main_v21 (F := Ideal) x0 (ix2 a b)
      = 0 + ∑ k : Fin 128, (val_main_v4 (F := Ideal) x0 (ix2 a k) - val_main_v4 (F := Ideal) x0 (ix2 b k))
          * (val_main_v4 (F := Ideal) x0 (ix2 a k) - val_main_v4 (F := Ideal) x0 (ix2 b k)) := by
  rw [val_main_v21_apply, val_main_cst_0_apply]
  simp only [val_main_v20_apply, val_main_v19_apply, val_main_v17_apply, val_main_v18_apply, val_main_v15_apply,
    val_main_v16_apply, idx_left, idx_right, Ideal.mulf_def, Ideal.subf_def, Ideal.ofBits_def, Ideal.ofBits_zero_f32]

/-- The label difference of rows a and b as the reference sums it over the label axis. -/
theorem labdiff_apply (x1 : X1) (a b : Fin 1024) :
    val_main_v14 (F := Ideal) x1 (ix2 a b)
      = 0 + ∑ _u : Fin 1, max (val_main_v7 (F := Ideal) x1 (ix2 a (0 : Fin 1)) - val_main_v7 (F := Ideal) x1 (ix2 b (0 : Fin 1)))
          (-(val_main_v7 (F := Ideal) x1 (ix2 a (0 : Fin 1)) - val_main_v7 (F := Ideal) x1 (ix2 b (0 : Fin 1)))) := by
  rw [val_main_v14_apply, val_main_cst_apply]
  simp only [val_main_v13_apply, val_main_v12_apply, val_main_v10_apply, val_main_v11_apply, val_main_v8_apply,
    val_main_v9_apply, idx_lab_left, idx_lab_right, Ideal.hostAbsf_def, Ideal.absf_def, Ideal.subf_def, Ideal.ofBits_def,
    Ideal.ofBits_zero_f32]

/-- Entry (a, b) of the masked matrix the reference sums: the direct spelling of the loss entry. -/
theorem entry_apply (x0 : X0) (x1 : X1) (a b : Fin 1024) :
    val_main_v30 (F := Ideal) x0 x1 (ix2 a b)
      = directEntry (upperBit a b) 1 (fun k : Fin 128 => val_main_v4 (F := Ideal) x0 (ix2 a k))
          (fun k : Fin 128 => val_main_v4 (F := Ideal) x0 (ix2 b k))
          (val_main_v7 (F := Ideal) x1 (ix2 a (0 : Fin 1))) (val_main_v7 (F := Ideal) x1 (ix2 b (0 : Fin 1))) := by
  rw [val_main_v30_apply, val_main_v29_apply, val_main_v28_apply, val_main_v27_apply, val_main_v25_apply, val_main_v24_apply,
    val_main_v26_apply, val_main_cst_2_apply, val_main_call1_v1_apply, val_main_call1_v0_apply, val_main_cst_1_apply,
    val_main_call2_v1_apply, val_main_call2_v0_apply, val_main_cst_3_apply, mask_apply, sqdist_apply, labdiff_apply]
  simp only [Ideal.mulf_def, Ideal.subf_def, Ideal.hostDivf_def, Ideal.hostUnary_sqrt_def, Ideal.ofBits_def,
    Ideal.ofBits_zero_f32, Ideal.ofBits_one_f32, Cert.FloatWords.ofBits_two]
  rfl

/-- The reference's result: the entries summed over all pairs from 0, divided by the number of pairs. -/
theorem result_apply (x0 : X0) (x1 : X1) (i : S_.Idx) :
    val_main_v32 (F := Ideal) x0 x1 i
      = Ideal.div (0 + ∑ a : Fin 1024, ∑ b : Fin 1024,
          directEntry (upperBit a b) 1 (fun k : Fin 128 => val_main_v4 (F := Ideal) x0 (ix2 a k))
            (fun k : Fin 128 => val_main_v4 (F := Ideal) x0 (ix2 b k))
            (val_main_v7 (F := Ideal) x1 (ix2 a (0 : Fin 1))) (val_main_v7 (F := Ideal) x1 (ix2 b (0 : Fin 1))))
        (Ideal.ofBits .f32 0x48FFC000#32) := by
  rw [val_main_v32_apply, val_main_v31_apply, val_main_cst_4_apply, val_main_cst_5_apply, sum_idx2]
  simp only [entry_apply, Ideal.hostDivf_def, Ideal.ofBits_def, Ideal.ofBits_zero_f32]

/-- Every entry of the stacked features is an entry of the features: rows below 512 come from view 0, the others from
    view 1. -/
theorem stacked_entry (x0 : X0) (j : S1024x128.Idx) : ∃ i, val_main_v4 (F := Ideal) x0 j = x0 i := by
  have hj0 : (j 0).val < 1024 := (j 0).isLt
  have hj1 : (j 1).val < 128 := (j 1).isLt
  unfold val_main_v4
  by_cases hlt : (j 0).val < 512
  · refine ⟨idx_main_v0 (idx_main_v1 (ix2 (⟨(j 0).val, hlt⟩ : Fin 512) (⟨(j 1).val, hj1⟩ : Fin 128))), ?_⟩
    rw [concatenate_pair_apply_left (t := S1024x128) (s₁ := S512x128) (s₂ := S512x128) (0 : Fin 2) _ _ concatenates_S512x128_S512x128_S1024x128_d0 j rfl
      (ix2 (⟨(j 0).val, hlt⟩ : Fin 512) (⟨(j 1).val, hj1⟩ : Fin 128))
      (fun b => by match b with | ⟨0, _⟩ => rfl | ⟨1, _⟩ => rfl), val_main_v1_apply, val_main_v0_apply]
  · refine ⟨idx_main_v2 (idx_main_v3 (ix2 (⟨(j 0).val - 512, by omega⟩ : Fin 512) (⟨(j 1).val, hj1⟩ : Fin 128))), ?_⟩
    rw [concatenate_pair_apply_right (t := S1024x128) (s₁ := S512x128) (s₂ := S512x128) (0 : Fin 2) _ _ concatenates_S512x128_S512x128_S1024x128_d0 j rfl rfl
      (ix2 (⟨(j 0).val - 512, by omega⟩ : Fin 512) (⟨(j 1).val, hj1⟩ : Fin 128))
      (fun b hb => by
        match b with
        | ⟨0, _⟩ => exact absurd rfl hb
        | ⟨1, _⟩ => rfl)
      (by show (j 0).val - 512 + 512 = (j 0).val; omega), val_main_v3_apply, val_main_v2_apply]

end Cert.RefSide

end
-- ==== Proof.FiniteFeatures.lean ====
/-
  From the precondition to real entries: "every |x| is below +∞" says every entry of the features is a real number.
  An extended real whose absolute value max x (−x) is below +∞ is neither +∞ nor −∞.
-/
import proofs.«137974_j50757923504321_2_alg».proof.Pre_finite_inputs
import proofs.«137974_j50757923504321_2_alg».proof.Proof.LibFloatWords
import Idealize.ShloMosaic.Lib.ReduceAll
import Idealize.ShloMosaic.Lib.ValueIdx
import Idealize.ShloMosaic.PureOps.Ideal.Laws

noncomputable section

namespace Cert.FiniteSide

open Idealize.ShloMosaic Cert.Pre_finite_inputs

instance : Subsingleton S_.Idx := ⟨fun _ _ => funext fun d => d.elim0⟩

/-- An extended real whose absolute value is below +∞ is a real. -/
theorem real_of_abs_lt_top (x : EReal) (h : max x (-x) < ⊤) : ∃ r : ℝ, x = r := by
  induction x using EReal.rec with
  | bot => simp at h
  | coe r => exact ⟨r, rfl⟩
  | top => simp at h

/-- Under the precondition every entry of the features is a real. -/
theorem features_real [Facts] (x0 : FVec Ideal S512x2x128 .f32) (x1 : FVec Ideal S512x1 .f32)
    (h : fn (F := Ideal) x0 x1 = fun _ => 1#1) (i : S512x2x128.Idx) : ∃ r : ℝ, x0 i = r := by
  have h0 := congrFun h ValueIdx.ix0
  dsimp only [fn] at h0
  obtain ⟨ha, -⟩ := IntOp.andi_eq_one.1 h0
  have hi := Host.reduce_andi_all _ _ _ _ _ ha i
  have hc : Ideal.cmp .olt (max (x0 i) (-(x0 i))) (Ideal.ofBits .f32 0x7F800000#32) = 1#1 := hi
  rw [Cert.FloatWords.ofBits_inf] at hc
  refine real_of_abs_lt_top _ ?_
  by_contra hn
  have hz : Ideal.cmp .olt (max (x0 i) (-(x0 i))) ⊤ = 0#1 := by
    show BitVec.ofBool (decide (max (x0 i) (-(x0 i)) < ⊤)) = 0#1
    rw [decide_eq_false hn]
    rfl
  rw [hz] at hc
  exact absurd hc (by decide)

end Cert.FiniteSide

end
-- ==== Proof.lean ====
/-
  The pairwise loss of 1024 rows (two views of 512 samples, 128 features, one label each): the kernel against its reference.

  Both programs stack the two views into one feature matrix f and the labels into one column lab, and add, over the pairs
  i < j, the squared error ( √d²(i, j) / 2 − |lab i − lab j| )², then divide by the number of pairs, 523776.

  * The reference computes d²(i, j) = ∑ₖ (f(i,k) − f(j,k))² directly, for all 1024 × 1024 pairs at once.
  * The kernel expands d²(i, j) = ‖f i‖² + ‖f j‖² − 2 · f i · f j (the cross terms one matrix product), clamps it at 0 before
    the root, works on two blocks of 512 rows, one per grid point, and leaves the sum of the two blocks' shares and the
    division to the host.

  On the extended reals a format change is the identity and sums may be regrouped freely; the one law that needs the
  precondition is the expansion of the squared distance, false at an infinity: with finite features both squared distances
  are the same real, not negative, so the clamp does nothing. Labels enter both sides through the same expression.

  The frames of the two kernel programs are the generated frame proofs with the grid coordinate threaded through
  (KernelFrameP, KernelIdealFrameP); the reference's frame is its generated run; the idealization rewrote nothing.
-/
import proofs.«137974_j50757923504321_2_alg».proof.Defs
import proofs.«137974_j50757923504321_2_alg».proof.Proof.Gen.Kernel
import proofs.«137974_j50757923504321_2_alg».proof.Proof.Gen.KernelIdeal
import proofs.«137974_j50757923504321_2_alg».proof.Proof.Gen.ReferenceIdeal
import proofs.«137974_j50757923504321_2_alg».proof.Proof.Gen.Pre_finite_inputs
import proofs.«137974_j50757923504321_2_alg».proof.Proof.Gen.ReferenceIdeal.Run
import proofs.«137974_j50757923504321_2_alg».proof.Proof.Gen.ReferenceIdeal.Read
import proofs.«137974_j50757923504321_2_alg».proof.Proof.KernelFrameP
import proofs.«137974_j50757923504321_2_alg».proof.Proof.KernelIdealFrameP
import proofs.«137974_j50757923504321_2_alg».proof.Proof.KernelRun
import proofs.«137974_j50757923504321_2_alg».proof.Proof.RefTotal
import proofs.«137974_j50757923504321_2_alg».proof.Proof.FiniteFeatures
import proofs.«137974_j50757923504321_2_alg».proof.Proof.PairLaw
import Idealize.ShloMosaic.Adequacy
import Idealize.ShloMosaic.Init

noncomputable section

namespace Cert.Proof

open Idealize.ShloMosaic Idealize.ShloMosaic.TcCoe Idealize.SL.Sem Idealize.ShloMosaic.ValueIdx

/-- With finite features the kernel program's result and the reference's are one extended real: the two blocks' shares
    in the expanded spelling add up to the total over all pairs in the direct spelling. -/
theorem result_eq (x0 : Cert.KernelSide.X0) (x1 : Cert.KernelSide.X1)
    (hpre : Cert.Pre_finite_inputs.fn (F := Ideal) x0 x1 = fun _ => 1#1) :
    Cert.KernelSide.result x0 x1 = Cert.ReferenceIdeal.Read.val_main_v32 (F := Ideal) x0 x1 := by
  have hfeat : Cert.KernelSide.feat x0 = Cert.ReferenceIdeal.Read.val_main_v4 (F := Ideal) x0 := rfl
  have hlab : Cert.KernelSide.labs x1 = Cert.ReferenceIdeal.Read.val_main_v7 (F := Ideal) x1 := rfl
  have hreal : ∀ (a : Fin 1024) (k : Fin 128), ∃ r : ℝ, Cert.KernelSide.featAt x0 a k = r := fun a k => by
    obtain ⟨i, hi⟩ := Cert.RefSide.stacked_entry x0 (ix2 a k)
    unfold Cert.KernelSide.featAt
    rw [hfeat, hi]
    exact Cert.FiniteSide.features_real x0 x1 hpre i
  funext i
  rw [Cert.KernelSide.result_apply, Cert.RefSide.result_apply, Cert.PairLoss.tiles_total _ _ hreal]
  unfold Cert.PairLoss.directTotal Cert.KernelSide.featAt Cert.KernelSide.labAt
  rw [hfeat, hlab]

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the results agree. -/
theorem algebraic : Cert.algebraic_KernelIdeal_ReferenceIdeal := by
  intro m ρ m' ρ' hpre hagree
  refine ⟨fun c => Cert.KernelSide.result (m ((c : Thread Cert.KernelIdeal.nD Cert.KernelIdeal.τ).loc Cert.KernelIdeal.main_arg0))
    (m ((c : Thread Cert.KernelIdeal.nD Cert.KernelIdeal.τ).loc Cert.KernelIdeal.main_arg1)), Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  exact (result_eq _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
